-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .hbm, ⟨4, _⟩ => ⟨S16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S16x2048x64.size a
  hwx0_3 : ∀ i : grid0.Coords, EltTy.bits .f32 = 32 ∨ (Rect.block (s := S16x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x2048x2048.size a
  hwx0_4 : ∀ i : grid0.Coords, EltTy.bits .f32 = 32 ∨ (Rect.block (s := S16x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S_ : Shape := ⟨0, ![]⟩
abbrev S16x2048x2048 : Shape := ⟨3, ![16, 2048, 2048]⟩
abbrev S16x2048 : Shape := ⟨2, ![16, 2048]⟩
abbrev S16x2048x1 : Shape := ⟨3, ![16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Spec.lean ====
/-
  Scaled dot-product attention over the extended reals, as one function of the three argument arrays.

  For a batch entry b and a query row n, the score against key row m is the inner product of q(b, n, ·) with k(b, m, ·)
  over the 64 features, times the scale c. The row's weights are exp(score − M), M the maximum of the row's scores
  folded from −∞; the attention probabilities are the weights divided by their sum over the 2048 keys; the output row
  is the probabilities' combination of the value rows, ∑ₘ attn(b, n, m) · v(b, m, ·).
  Both programs compute exactly these formulas, so nothing about the extended reals beyond the definitions is needed:
  no term is moved across a sum and nothing is cancelled.
-/
import Idealize.ShloMosaic.PureOps.Ideal
import Idealize.ShloMosaic.Lib.ValueIdx

noncomputable section

namespace Cert.Attn

open Idealize.ShloMosaic Idealize.ShloMosaic.ValueIdx
open scoped BigOperators

/-- The scores of one query row `qr` against the key rows `ks`: inner products over the features, scaled by `c`. -/
def scores {D M : ℕ} (c : EReal) (qr : Fin D → EReal) (ks : Fin M → Fin D → EReal) (m : Fin M) : EReal :=
  (∑ d : Fin D, qr d * ks m d) * c

/-- A row's maximum, folded from `b`. -/
def rowMax {M : ℕ} (b : EReal) (s : Fin M → EReal) : EReal :=
  (Finset.univ : Finset (Fin M)).fold max b s

/-- A row's unnormalised weights: the exponential of each score less the row's maximum. -/
def weight {M : ℕ} (b : EReal) (s : Fin M → EReal) (m : Fin M) : EReal :=
  Ideal.exp (s m - rowMax b s)

/-- A row's softmax: each weight divided by the sum of the row's weights. -/
def softmax {M : ℕ} (b : EReal) (s : Fin M → EReal) (m : Fin M) : EReal :=
  Ideal.div (weight b s m) (∑ j : Fin M, weight b s j)

/-- Folding `max` from `b` gives at least `b`, so taking the maximum with `b` once more changes nothing. -/
theorem max_rowMax {M : ℕ} (b : EReal) (s : Fin M → EReal) : max b (rowMax b s) = rowMax b s :=
  max_eq_right ((Finset.le_fold_max b).mpr (Or.inl le_rfl))

/-- The pattern of `-∞`, the value both programs fold their row maximum from. -/
abbrev ninf : EReal := Ideal.ofBits .f32 0xFF800000#32

/-- The pattern of `0.125`, the scale `1/√64`. -/
abbrev scale : EReal := Ideal.ofBits .f32 0x3E000000#32

/-- The shape of q, k, v and of the output: [batch, rows, features]. -/
abbrev SQ : Shape := ⟨3, ![16, 2048, 64]⟩
/-- The shape of the attention probabilities: [batch, query rows, key rows]. -/
abbrev SA : Shape := ⟨3, ![16, 2048, 2048]⟩

/-- The attention probability of query row `n` for key row `m` in batch entry `b`. -/
def attnAt (q k : SQ.Idx → EReal) (b : Fin 16) (n m : Fin 2048) : EReal :=
  softmax ninf (scores scale (fun d : Fin 64 => q (ix3 b n d)) (fun (j : Fin 2048) (d : Fin 64) => k (ix3 b j d))) m

/-- The output at feature `d` of query row `n` in batch entry `b`. -/
def outAt (q k v : SQ.Idx → EReal) (b : Fin 16) (n : Fin 2048) (d : Fin 64) : EReal :=
  ∑ m : Fin 2048, attnAt q k b n m * v (ix3 b m d)

/-- The attention probabilities as one array. -/
def attnArr (q k : SQ.Idx → EReal) : SA.Idx → EReal := fun i => attnAt q k (i 0) (i 1) (i 2)

/-- The output as one array. -/
def outArr (q k v : SQ.Idx → EReal) : SQ.Idx → EReal := fun i => outAt q k v (i 0) (i 1) (i 2)

theorem attnArr_apply (q k : SQ.Idx → EReal) (b : Fin 16) (n m : Fin 2048) :
    attnArr q k (ix3 b n m) = attnAt q k b n m := rfl

theorem outArr_apply (q k v : SQ.Idx → EReal) (b : Fin 16) (n : Fin 2048) (d : Fin 64) :
    outArr q k v (ix3 b n d) = outAt q k v b n d := rfl

end Cert.Attn

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibUnitAxis.lean ====
/-
  A leading unit axis read at an index.

  A block of shape [1, h, w] and the matrix of shape [h, w] with the same entries in row-major order: viewing the
  block as the matrix reads (0, r, c) at (r, c), and storing the matrix as a block reads (r, c) at (·, r, c). For any
  element type and any extents.
-/
import Idealize.ShloMosaic.Lib.Pipeline.Value
import Idealize.ShloMosaic.Lib.ValueIdx

noncomputable section

namespace Cert.Lib.UnitAxis

open Idealize.ShloMosaic Idealize.ShloMosaic.ValueIdx

/-- A block [1, h, w] viewed [h, w] reads (0, r, c) at (r, c). -/
theorem drop_apply {h w : Nat} {α : Type} (v : (⟨3, ![1, h, w]⟩ : Shape).Idx → α)
    (hc : (⟨3, ![1, h, w]⟩ : Shape).ShapeCasts ⟨2, ![h, w]⟩) (r : Fin h) (c : Fin w) :
    shapeCast ⟨2, ![h, w]⟩ v hc (ix2 r c) = v (ix3 (0 : Fin 1) r c) :=
  shapeCast_apply v hc _ _ (by
    rw [Shape.rowMajor_val_three, Shape.rowMajor_val_two]
    show (0 * h + r.val) * w + c.val = r.val * w + c.val
    rw [Nat.zero_mul, Nat.zero_add])

/-- An [h, w] value stored as a block [1, h, w] reads (r, c) at (u, r, c). -/
theorem add_apply {h w : Nat} {α : Type} (v : (⟨2, ![h, w]⟩ : Shape).Idx → α)
    (hc : (⟨2, ![h, w]⟩ : Shape).ShapeCasts ⟨3, ![1, h, w]⟩) (u : Fin 1) (r : Fin h) (c : Fin w) :
    shapeCast ⟨3, ![1, h, w]⟩ v hc (ix3 u r c) = v (ix2 r c) :=
  shapeCast_apply v hc _ _ (by
    have hu : u.val = 0 := by omega
    rw [Shape.rowMajor_val_three, Shape.rowMajor_val_two]
    show r.val * w + c.val = (u.val * h + r.val) * w + c.val
    rw [hu, Nat.zero_mul, Nat.zero_add])

end Cert.Lib.UnitAxis

end
-- ==== Proof.LibRowDot.lean ====
/-
  A matrix product against a row-major weight, read at an index.

  The dimension numbers of an [a, c] × [b, c] → [a, b] product contract axis 1 of BOTH operands and have no batch
  axis: the right operand is a stack of b rows of length c, and result entry (p, q) is the inner product of the left
  operand's row p with the right operand's row q. At result index (p, q) and contraction position k the left operand
  is read at (p, k) and the right operand at (q, k), so the sum over the contraction shape's one-axis index set is
  the sum over k : Fin c of lhs (p, k) * rhs (q, k) — in any commutative additive monoid with a product, the
  extended reals included. The statement is over variable extents; a printed record with these six lists is this
  one by reflexivity.
-/
import Idealize.ShloMosaic.Lib.ValueIdx
import Idealize.ShloMosaic.PureOps.Ideal.Laws

noncomputable section

namespace Cert.Lib.RowDot

open Idealize.ShloMosaic Idealize.ShloMosaic.ValueIdx
open scoped BigOperators

variable {a c b : Nat}

/-- The dimension numbers of the product [a, c] × [b, c] → [a, b] that contracts the second axis of both. -/
abbrev dims (wf : DotDims.WF ⟨2, ![a, c]⟩ ⟨2, ![b, c]⟩ ⟨2, ![a, b]⟩ [1] [1] [0] [0] [] []) :
    DotDims ⟨2, ![a, c]⟩ ⟨2, ![b, c]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, c]⟩ ⟨2, ![b, c]⟩ ⟨2, ![a, b]⟩ [1] [1] [0] [0] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the result's column. -/
theorem rhs_row (i : (⟨2, ![a, b]⟩ : Shape).Idx) (k : (dims wf).contr.Idx) :
    ((dims wf).rhsIdx i k 0).val = (i 1).val := by
  unfold DotDims.rhsIdx
  rw [dif_neg (show ¬(0 : Fin 2) ∈ (dims wf).rhsBatch from List.not_mem_nil),
    dif_pos (show (0 : Fin 2) ∈ (dims wf).rhsNonContracting from List.mem_singleton.mpr rfl)]
  rfl

/-- The right operand's column is the contraction position. -/
theorem rhs_col (i : (⟨2, ![a, b]⟩ : Shape).Idx) (k : (dims wf).contr.Idx) :
    ((dims wf).rhsIdx i k 1).val = (k ⟨0, Nat.one_pos⟩).val :=
  (dims wf).rhsIdx_val_of_single rfl i k

/-- The product's sum at (p, q): over k, the left operand at (p, k) times the right operand at (q, k). -/
theorem sum_apply {M : Type*} [AddCommMonoid M] [Mul M] (lhs : (⟨2, ![a, c]⟩ : Shape).Idx → M)
    (rhs : (⟨2, ![b, c]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 q k) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 q k :=
    funext fun ax => Fin.ext (by
      match ax with
      | ⟨0, _⟩ => exact rhs_row wf _ _
      | ⟨1, _⟩ => exact (rhs_col wf _ _).trans hk)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![b, c]⟩ φ₂) (p : Fin a) (q : Fin b) :
    matmul (dims wf) prec lhs rhs (constant ⟨2, ![a, b]⟩ .f32 0x00000000#32) (ix2 p q)
      = ∑ k : Fin c, lhs (ix2 p k) * rhs (ix2 q k) :=
  (Ideal.matmul_constant_zero_apply (dims wf) prec lhs rhs (ix2 p q)).trans (sum_apply wf lhs rhs p q)

end Cert.Lib.RowDot

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.KernelTile.lean ====
/-
  What the kernel body computes from its three loaded blocks, read index by index.

  A grid point loads a [1, 512, 64] block of query rows, and the whole [1, 2048, 64] key and value blocks of its batch
  entry. Dropping the unit axis, the score tile [512, 2048] is the product of the query rows with the key rows over
  the 64 features (a product into a zero accumulator is the plain sum of products; the change of float format before
  it is the identity on exact values), scaled by 0.125. Each row of the tile is then put through the softmax: the
  row's maximum from −∞, kept as a column and broadcast back along the row; the exponential of the difference; the
  row's sum, again kept as a column and broadcast; the quotient. That tile is stored as the attention block, and its
  product with the value rows over the 2048 keys is stored as the output block.
-/
import proofs.«147479_j15908558864399_2_alg».proof.Proof.Gen.KernelIdeal.Skeleton
import proofs.«147479_j15908558864399_2_alg».proof.Proof.Spec
import proofs.«147479_j15908558864399_2_alg».proof.Proof.LibKeepdims
import proofs.«147479_j15908558864399_2_alg».proof.Proof.LibUnitAxis
import proofs.«147479_j15908558864399_2_alg».proof.Proof.LibRowDot
import proofs.«147479_j15908558864399_2_alg».proof.Proof.LibPlainDot
import Idealize.ShloMosaic.PureOps.Ideal.Laws
import Idealize.ShloMosaic.Lib.ValueIdx

noncomputable section

namespace Cert.KernelIdeal.Tile

open Cert.KernelIdeal Cert.KernelIdeal.Gen Idealize.ShloMosaic Idealize.ShloMosaic.ValueIdx Cert.Attn Cert.Lib
open scoped BigOperators

/-! ## The score tile -/

/-- The scaled products of the block's query rows with the key rows. -/
def scoreTile (P0 : Vec Ideal S1x512x64 .f32) (P1 : Vec Ideal S1x2048x64 .f32) : FVec Ideal S512x2048 .f32 :=
  mulf (matmul dot_S512x64_S2048x64_S512x2048_1_1_0_0_n_n none
      (truncf .bf16 (shapeCast S512x64 P0 shapeCasts_S1x512x64_S512x64) bitsLt_bf16_f32)
      (truncf .bf16 (shapeCast S2048x64 P1 shapeCasts_S1x2048x64_S2048x64) bitsLt_bf16_f32)
      (constant S512x2048 .f32 0x00000000#32))
    (broadcast S512x2048 (Scalar.ofBits .f32 0x3E000000#32))

/-- Entry (r, m) of the score tile: query row r against key row m. -/
theorem scoreTile_apply (P0 : Vec Ideal S1x512x64 .f32) (P1 : Vec Ideal S1x2048x64 .f32) (r : Fin 512) (m : Fin 2048) :
    scoreTile P0 P1 (ix2 r m)
      = scores scale (fun d : Fin 64 => P0 (ix3 (0 : Fin 1) r d)) (fun (j : Fin 2048) (d : Fin 64) => P1 (ix3 (0 : Fin 1) j d)) m := by
  unfold scoreTile scores
  rw [mulf_apply, broadcast_apply]
  refine congrArg₂ (· * ·) ?_ rfl
  refine (RowDot.matmul_zero_apply dot_S512x64_S2048x64_S512x2048_1_1_0_0_n_n_wf none _ _ r m).trans ?_
  refine Finset.sum_congr rfl fun d _ => ?_
  rw [truncf_apply, truncf_apply, UnitAxis.drop_apply, UnitAxis.drop_apply]

/-! ## A row statistic kept as a column and broadcast back -/

/-- The source index of a reduction along the rows: result row r with the column k inserted. -/
theorem lift_eq (r : Fin 512) (k : Fin 2048) :
    reduces_S512x2048_S512.lift (ix1 r) k = ix2 r k :=
  funext fun a => Fin.ext (by match a with | ⟨0, _⟩ => rfl | ⟨1, _⟩ => rfl)

/-- The maximum of each row of a tile, from −∞. -/
theorem tileMax_apply (S : FVec Ideal S512x2048 .f32) (r : Fin 512) :
    multiReduction .maximumf [1] S512 S 0xFF800000#32 reduces_S512x2048_S512 (.inl rfl) rfl (ix1 r)
      = rowMax ninf (fun m : Fin 2048 => S (ix2 r m)) := by
  refine (Ideal.multiReduction_maximumf_single S _ reduces_S512x2048_S512 _ _ (ix1 r)).trans ?_
  show (Finset.univ : Finset (Fin 2048)).fold max ninf (fun m : Fin 2048 => S (reduces_S512x2048_S512.lift (ix1 r) m)) = _
  rw [show (fun m : Fin 2048 => S (reduces_S512x2048_S512.lift (ix1 r) m)) = fun m : Fin 2048 => S (ix2 r m) from
    funext fun m => congrArg S (lift_eq r m)]
  rfl

/-- The sum of each row of a tile. -/
theorem tileSum_apply (E : FVec Ideal S512x2048 .f32) (r : Fin 512) :
    multiReduction .add [1] S512 E 0x00000000#32 reduces_S512x2048_S512 (.inl rfl) rfl (ix1 r)
      = ∑ m : Fin 2048, E (ix2 r m) := by
  refine (Ideal.multiReduction_add_single E _ reduces_S512x2048_S512 _ _ (ix1 r)).trans ?_
  show ∑ m : Fin 2048, E (reduces_S512x2048_S512.lift (ix1 r) m) = _
  exact Finset.sum_congr rfl fun m _ => congrArg E (lift_eq r m)

/-- A length-512 vector of row statistics kept as a column and broadcast along the rows reads, at (r, m), entry r. -/
theorem keepdims_apply (x : FVec Ideal S512 .f32) (r : Fin 512) (m : Fin 2048) :
    broadcastTo S512x2048 (shapeCast S512x1 x shapeCasts_S512_S512x1) broadcasts_S512x1_S512x2048 (ix2 r m) = x (ix1 r) :=
  (Keepdims.bcastCol_apply _ broadcasts_S512x1_S512x2048 r m).trans (Keepdims.col_apply x shapeCasts_S512_S512x1 r 0)

/-! ## The softmax of a tile's rows -/

/-- The unnormalised weights: the exponential of each entry less its row's maximum. -/
def weightTile (S : FVec Ideal S512x2048 .f32) : FVec Ideal S512x2048 .f32 :=
  exp (subf S (broadcastTo S512x2048 (shapeCast S512x1
    (multiReduction .maximumf [1] S512 S 0xFF800000#32 reduces_S512x2048_S512 (.inl rfl) rfl)
    shapeCasts_S512_S512x1) broadcasts_S512x1_S512x2048))

theorem weightTile_apply (S : FVec Ideal S512x2048 .f32) (r : Fin 512) (m : Fin 2048) :
    weightTile S (ix2 r m) = weight ninf (fun j : Fin 2048 => S (ix2 r j)) m := by
  unfold weightTile weight
  show Ideal.exp (S (ix2 r m) - broadcastTo S512x2048 (shapeCast S512x1 _ shapeCasts_S512_S512x1) broadcasts_S512x1_S512x2048 (ix2 r m)) = _
  rw [keepdims_apply, tileMax_apply]

/-- Each weight divided by its row's sum of weights. -/
def softmaxTile (S : FVec Ideal S512x2048 .f32) : FVec Ideal S512x2048 .f32 :=
  divf (weightTile S) (broadcastTo S512x2048 (shapeCast S512x1
    (multiReduction .add [1] S512 (weightTile S) 0x00000000#32 reduces_S512x2048_S512 (.inl rfl) rfl)
    shapeCasts_S512_S512x1) broadcasts_S512x1_S512x2048)

theorem softmaxTile_apply (S : FVec Ideal S512x2048 .f32) (r : Fin 512) (m : Fin 2048) :
    softmaxTile S (ix2 r m) = softmax ninf (fun j : Fin 2048 => S (ix2 r j)) m := by
  unfold softmaxTile softmax
  rw [divf_apply, keepdims_apply, tileSum_apply, weightTile_apply]
  refine congrArg (Ideal.div _) (Finset.sum_congr rfl fun j _ => ?_)
  rw [weightTile_apply]

/-! ## The two stored tiles -/

/-- The attention tile is the softmax of the score tile's rows. -/
theorem attnTile_eq (P0 : Vec Ideal S1x512x64 .f32) (P1 : Vec Ideal S1x2048x64 .f32) :
    k0_pay1 (F := Ideal) P0 P1 = softmaxTile (scoreTile P0 P1) := rfl

/-- Entry (r, m) of the attention tile. -/
theorem attnTile_apply (P0 : Vec Ideal S1x512x64 .f32) (P1 : Vec Ideal S1x2048x64 .f32) (r : Fin 512) (m : Fin 2048) :
    k0_pay1 (F := Ideal) P0 P1 (ix2 r m)
      = softmax ninf (scores scale (fun d : Fin 64 => P0 (ix3 (0 : Fin 1) r d))
          (fun (j : Fin 2048) (d : Fin 64) => P1 (ix3 (0 : Fin 1) j d))) m := by
  rw [attnTile_eq, softmaxTile_apply]
  refine congrArg (fun s => softmax ninf s m) (funext fun j => ?_)
  exact scoreTile_apply P0 P1 r j

/-- The stored attention block is the attention tile under a leading unit axis. -/
theorem attnBlock_apply (P0 : Vec Ideal S1x512x64 .f32) (P1 : Vec Ideal S1x2048x64 .f32) (u : Fin 1) (r : Fin 512) (m : Fin 2048) :
    k0_pay2 (F := Ideal) P0 P1 (ix3 u r m) = k0_pay1 (F := Ideal) P0 P1 (ix2 r m) := by
  unfold k0_pay2
  exact UnitAxis.add_apply _ shapeCasts_S512x2048_S1x512x2048 u r m

/-- The stored output block: entry (r, d) is the attention tile's row r combined with column d of the value rows. -/
theorem outBlock_apply (P0 : Vec Ideal S1x512x64 .f32) (P1 P2 : Vec Ideal S1x2048x64 .f32) (u : Fin 1) (r : Fin 512) (d : Fin 64) :
    k0_pay3 (F := Ideal) P0 P1 P2 (ix3 u r d)
      = ∑ m : Fin 2048, k0_pay1 (F := Ideal) P0 P1 (ix2 r m) * P2 (ix3 (0 : Fin 1) m d) := by
  unfold k0_pay3
  generalize k0_pay1 (F := Ideal) P0 P1 = A
  refine (UnitAxis.add_apply _ shapeCasts_S512x64_S1x512x64 u r d).trans ?_
  refine (PlainDot.matmul_zero_apply dot_S512x2048_S2048x64_S512x64_1_0_0_1_n_n_wf none _ _ r d).trans ?_
  refine Finset.sum_congr rfl fun m _ => ?_
  rw [truncf_apply, truncf_apply, UnitAxis.drop_apply]

end Cert.KernelIdeal.Tile

end
-- ==== Proof.KernelArray.lean ====
/-
  From what each grid point writes back to the two result arrays as whole functions of the arguments.

  The grid is 16 batch entries by 4 tiles of 512 query rows. At point (b, qi) the query window holds rows
  512·qi … 512·qi + 511 of batch entry b, the key and value windows hold all 2048 rows of batch entry b, and the two
  result windows are written back to the same rows of batch entry b of the output and of the attention array. So entry
  (0, r, ·) of the query block is row (b, 512·qi + r) of q, entry (0, j, ·) of the key (value) block is row (b, j) of k
  (v), and what the point writes back is the block (b, qi) of the specification's arrays. The 64 blocks tile each result
  array: the point that covers row n of batch entry b is (b, n / 512).
-/
import proofs.«147479_j15908558864399_2_alg».proof.Proof.Gen.KernelIdeal.Value
import proofs.«147479_j15908558864399_2_alg».proof.Proof.KernelTile
import Idealize.ShloMosaic.Lib.Pipeline.Value

noncomputable section

namespace Cert.KernelIdeal.Whole

open Cert.KernelIdeal Cert.KernelIdeal.Gen Cert.KernelIdeal.Value Cert.KernelIdeal.Tile
open Idealize.ShloMosaic Idealize.ShloMosaic.TcCoe Idealize.SL.Sem Idealize.ShloMosaic.ValueIdx Cert.Attn
open Idealize.ShloMosaic.Pipeline (Dat)
open scoped BigOperators

variable (m : (ℓ : Loc nD τ sig) → Buf (Elt Ideal) ℓ) (ρ : Dev nD → PrngReg)

theorem hz : (![0, 0, 0] : Fin 3 → Nat) = fun _ => 0 := funext fun a => by fin_cases a <;> rfl

/-! ## The index maps over the grid -/

/-- Every window's batch index is the point's; the query and the two result windows share the tile index; the key and
    value windows stay at row block 0; no window moves along its last axis. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (2 : Fin 3) = 0 ∧ win0_4.index t (0 : Fin 3) < 16 ∧ win0_4.index t (1 : Fin 3) < 4 :=
  (by decide +kernel : ∀ t : Fin grid0.N, _)

/-- Every (batch entry, tile) pair is some point's. -/
theorem idx_onto : ∀ (b : Fin 16) (qi : Fin 4), ∃ t : Fin cfg0.N, win0_4.index t = ![b.val, qi.val, 0] :=
  (by decide +kernel : ∀ (b : Fin 16) (qi : Fin 4), ∃ t : Fin grid0.N, win0_4.index t = ![b.val, qi.val, 0])

/-! ## The input blocks as rows of the arguments -/

/-- Entry (0, r, d) of the query block at a point is the element of q at the block's position. -/
theorem qBlock_apply (c : Dev nD) (t : Fin cfg0.N) (r : Fin 512) (d : Fin 64) (i : S16x2048x64.Idx)
    (h0 : (i 0).val = win0_0.index t (0 : Fin 3)) (h1 : (i 1).val = win0_0.index t (1 : Fin 3) * 512 + r.val)
    (h2 : (i 2).val = win0_0.index t (2 : Fin 3) * 64 + d.val) :
    (iblk m c 0 t : Vec Ideal S1x512x64 .f32) (ix3 (0 : Fin 1) r d) = V m c main_arg0 i := by
  unfold iblk
  rw [View.read_apply]
  show V m c main_arg0 _ = V m c main_arg0 i
  congr 1
  funext a
  apply Fin.ext
  match a with
  | ⟨0, _⟩ => show win0_0.index t (0 : Fin 3) * 1 + 1 * 0 = (i 0).val; omega
  | ⟨1, _⟩ => show win0_0.index t (1 : Fin 3) * 512 + 1 * r.val = (i 1).val; omega
  | ⟨2, _⟩ => show win0_0.index t (2 : Fin 3) * 64 + 1 * d.val = (i 2).val; omega

/-- Entry (0, j, d) of the key block at a point is the element of k at the block's position. -/
theorem kBlock_apply (c : Dev nD) (t : Fin cfg0.N) (j : Fin 2048) (d : Fin 64) (i : S16x2048x64.Idx)
    (h0 : (i 0).val = win0_1.index t (0 : Fin 3)) (h1 : (i 1).val = win0_1.index t (1 : Fin 3) * 2048 + j.val)
    (h2 : (i 2).val = win0_1.index t (2 : Fin 3) * 64 + d.val) :
    (iblk m c 1 t : Vec Ideal S1x2048x64 .f32) (ix3 (0 : Fin 1) j d) = V m c main_arg1 i := by
  unfold iblk
  rw [View.read_apply]
  show V m c main_arg1 _ = V m c main_arg1 i
  congr 1
  funext a
  apply Fin.ext
  match a with
  | ⟨0, _⟩ => show win0_1.index t (0 : Fin 3) * 1 + 1 * 0 = (i 0).val; omega
  | ⟨1, _⟩ => show win0_1.index t (1 : Fin 3) * 2048 + 1 * j.val = (i 1).val; omega
  | ⟨2, _⟩ => show win0_1.index t (2 : Fin 3) * 64 + 1 * d.val = (i 2).val; omega

/-- Entry (0, j, d) of the value block at a point is the element of v at the block's position. -/
theorem vBlock_apply (c : Dev nD) (t : Fin cfg0.N) (j : Fin 2048) (d : Fin 64) (i : S16x2048x64.Idx)
    (h0 : (i 0).val = win0_2.index t (0 : Fin 3)) (h1 : (i 1).val = win0_2.index t (1 : Fin 3) * 2048 + j.val)
    (h2 : (i 2).val = win0_2.index t (2 : Fin 3) * 64 + d.val) :
    (iblk m c 2 t : Vec Ideal S1x2048x64 .f32) (ix3 (0 : Fin 1) j d) = V m c main_arg2 i := by
  unfold iblk
  rw [View.read_apply]
  show V m c main_arg2 _ = V m c main_arg2 i
  congr 1
  funext a
  apply Fin.ext
  match a with
  | ⟨0, _⟩ => show win0_2.index t (0 : Fin 3) * 1 + 1 * 0 = (i 0).val; omega
  | ⟨1, _⟩ => show win0_2.index t (1 : Fin 3) * 2048 + 1 * j.val = (i 1).val; omega
  | ⟨2, _⟩ => show win0_2.index t (2 : Fin 3) * 64 + 1 * d.val = (i 2).val; omega

/-! ## The attention tile of a point is a block of the specification -/

/-- Row r of the attention tile at a point whose blocks are rows (b, 512·qi + ·) of q and (b, ·) of k. -/
theorem attnTile_point (c : Dev nD) (t : Fin cfg0.N) (b : Fin 16) (n : Fin 2048) (r : Fin 512)
    (hb : b.val = win0_4.index t (0 : Fin 3)) (hn : n.val = win0_4.index t (1 : Fin 3) * 512 + r.val) (mm : Fin 2048) :
    k0_pay1 (F := Ideal) (iblk m c 0 t) (iblk m c 1 t) (ix2 r mm) = attnAt (V m c main_arg0) (V m c main_arg1) b n mm := by
  obtain ⟨e00, e01, e02, e10, e11, e12, -, -, -, -, -, -, -, -, -⟩ := idx_facts t
  refine (attnTile_apply (iblk m c 0 t) (iblk m c 1 t) r mm).trans ?_
  unfold attnAt
  have hq : (fun d : Fin 64 => (iblk m c 0 t : Vec Ideal S1x512x64 .f32) (ix3 (0 : Fin 1) r d))
      = fun d : Fin 64 => V m c main_arg0 (ix3 b n d) :=
    funext fun d => qBlock_apply m c t r d (ix3 b n d) (by show b.val = _; omega) (by show n.val = _; omega)
      (by show d.val = _; omega)
  have hk : (fun (j : Fin 2048) (d : Fin 64) => (iblk m c 1 t : Vec Ideal S1x2048x64 .f32) (ix3 (0 : Fin 1) j d))
      = fun (j : Fin 2048) (d : Fin 64) => V m c main_arg1 (ix3 b j d) :=
    funext fun j => funext fun d => kBlock_apply m c t j d (ix3 b j d) (by show b.val = _; omega)
      (by show j.val = _; omega) (by show d.val = _; omega)
  rw [hq, hk]

/-! ## The attention array -/

/-- What point `t` writes back to the attention array is block `t` of the specification's attention array. -/
theorem flushed4_eq (c : Dev nD) (t : Fin cfg0.N) :
    (dats m 0 c).flushed 4 t
      = ((cfg0.win 4).blk t).view.read (Elt Ideal) (attnArr (V m c main_arg0) (V m c main_arg1)) := by
  rw [flushed4]
  unfold out0_4
  rw [View.canon_unit_zero hz]
  simp only [View.ld_unit_zero (S := S1x512x64) hz, View.ld_unit_zero (S := S1x2048x64) hz]
  obtain ⟨-, -, -, -, -, -, -, -, -, -, -, -, e42, hb, hq⟩ := idx_facts t
  funext y
  obtain ⟨u, r, mm, rfl⟩ : ∃ (u : Fin 1) (r : Fin 512) (mm : Fin 2048), y = ix3 u r mm := ⟨y 0, y 1, y 2, eq_ix3 y⟩
  show k0_pay2 (F := Ideal) (iblk m c 0 t) (iblk m c 1 t) (ix3 u r mm)
    = attnArr (V m c main_arg0) (V m c main_arg1) (((cfg0.win 4).blk t).view.emb (ix3 u r mm))
  have hemb : ((cfg0.win 4).blk t).view.emb (ix3 u r mm)
      = ix3 (⟨win0_4.index t (0 : Fin 3), hb⟩ : Fin 16)
          (⟨win0_4.index t (1 : Fin 3) * 512 + r.val, by have := r.isLt; omega⟩ : Fin 2048) mm := by
    funext a
    apply Fin.ext
    match a with
    | ⟨0, _⟩ => show win0_4.index t (0 : Fin 3) * 1 + 1 * u.val = win0_4.index t (0 : Fin 3); have := u.isLt; omega
    | ⟨1, _⟩ => show win0_4.index t (1 : Fin 3) * 512 + 1 * r.val = win0_4.index t (1 : Fin 3) * 512 + r.val; omega
    | ⟨2, _⟩ => show win0_4.index t (2 : Fin 3) * 2048 + 1 * mm.val = mm.val; omega
  rw [hemb, attnArr_apply]
  refine (attnBlock_apply (iblk m c 0 t) (iblk m c 1 t) u r mm).trans ?_
  exact attnTile_point m c t _ _ r rfl rfl mm

/-- An index of the attention array is in point `t`'s block iff each coordinate is in the block's range. -/
theorem mem_blk4 (t : Fin cfg0.N) (i : S16x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v0_1).slice (win0_4.rect t)).set ↔ _
  rw [View.set_slice_whole, Rect.mem_set_unit]
  exact Iff.rfl

/-- Every index of the attention array is in the block of the point (batch entry, row / 512). -/
theorem cover4 (i : S16x2048x2048.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- The attention array after the run is the specification's, of the arguments as launched. -/
theorem final4 (c : Dev nD) :
    (dats m 0 c).arrAt 4 cfg0.N = attnArr (m ((c : Thread nD τ).loc main_arg0)) (m ((c : Thread nD τ).loc main_arg1)) :=
  (dats m 0 c).arrAt_eq_of_cover 4 _ (fun t _ => flushed4_eq m c t) cover4

/-! ## The output array -/

/-- What point `t` writes back to the output array is block `t` of the specification's output array. -/
theorem flushed3_eq (c : Dev nD) (t : Fin cfg0.N) :
    (dats m 0 c).flushed 3 t
      = ((cfg0.win 3).blk t).view.read (Elt Ideal) (outArr (V m c main_arg0) (V m c main_arg1) (V m c main_arg2)) := by
  rw [flushed3]
  unfold out0_3
  rw [View.canon_unit_zero hz]
  simp only [View.ld_unit_zero (S := S1x512x64) hz, View.ld_unit_zero (S := S1x2048x64) hz]
  obtain ⟨-, -, -, -, -, -, e20, e21, e22, e30, e31, e32, e42, hb, hq⟩ := idx_facts t
  funext y
  obtain ⟨u, r, d, rfl⟩ : ∃ (u : Fin 1) (r : Fin 512) (d : Fin 64), y = ix3 u r d := ⟨y 0, y 1, y 2, eq_ix3 y⟩
  show k0_pay3 (F := Ideal) (iblk m c 0 t) (iblk m c 1 t) (iblk m c 2 t) (ix3 u r d)
    = outArr (V m c main_arg0) (V m c main_arg1) (V m c main_arg2) (((cfg0.win 3).blk t).view.emb (ix3 u r d))
  have hemb : ((cfg0.win 3).blk t).view.emb (ix3 u r d)
      = ix3 (⟨win0_4.index t (0 : Fin 3), hb⟩ : Fin 16)
          (⟨win0_4.index t (1 : Fin 3) * 512 + r.val, by have := r.isLt; omega⟩ : Fin 2048) d := by
    funext a
    apply Fin.ext
    match a with
    | ⟨0, _⟩ => show win0_3.index t (0 : Fin 3) * 1 + 1 * u.val = win0_4.index t (0 : Fin 3); have := u.isLt; omega
    | ⟨1, _⟩ => show win0_3.index t (1 : Fin 3) * 512 + 1 * r.val = win0_4.index t (1 : Fin 3) * 512 + r.val; omega
    | ⟨2, _⟩ => show win0_3.index t (2 : Fin 3) * 64 + 1 * d.val = d.val; omega
  rw [hemb, outArr_apply]
  refine (outBlock_apply (iblk m c 0 t) (iblk m c 1 t) (iblk m c 2 t) u r d).trans ?_
  unfold outAt
  refine Finset.sum_congr rfl fun mm _ => ?_
  rw [attnTile_point m c t (⟨win0_4.index t (0 : Fin 3), hb⟩ : Fin 16)
    (⟨win0_4.index t (1 : Fin 3) * 512 + r.val, by have := r.isLt; omega⟩ : Fin 2048) r rfl rfl mm]
  have hv : (iblk m c 2 t : Vec Ideal S1x2048x64 .f32) (ix3 (0 : Fin 1) mm d)
      = V m c main_arg2 (ix3 (⟨win0_4.index t (0 : Fin 3), hb⟩ : Fin 16) mm d) :=
    vBlock_apply m c t mm d _ (by show win0_4.index t (0 : Fin 3) = _; omega) (by show mm.val = _; omega)
      (by show d.val = _; omega)
  rw [hv]

/-- An index of the output array is in point `t`'s block iff each coordinate is in the block's range. -/
theorem mem_blk3 (t : Fin cfg0.N) (i : S16x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v0_0).slice (win0_3.rect t)).set ↔ _
  rw [View.set_slice_whole, Rect.mem_set_unit]
  exact Iff.rfl

/-- Every index of the output array is in the block of the point (batch entry, row / 512). -/
theorem cover3 (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  obtain ⟨-, -, -, -, -, -, -, -, -, e30, e31, e32, -, -, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- The output array after the run is the specification's, of the arguments as launched. -/
theorem final3 (c : Dev nD) :
    (dats m 0 c).arrAt 3 cfg0.N = outArr (m ((c : Thread nD τ).loc main_arg0)) (m ((c : Thread nD τ).loc main_arg1))
      (m ((c : Thread nD τ).loc main_arg2)) :=
  (dats m 0 c).arrAt_eq_of_cover 3 _ (fun t _ => flushed3_eq m c t) cover3

/-! ## The run, read -/

/-- Every weakly fair execution of the kernel's program ends with the two result arrays at the specification's
    functions of the arguments as launched, and the arguments unchanged. -/
theorem run : θ_run defs (onTc (τ := τ) (main (F := Ideal))) ⟨m, fun _ => 0, ρ⟩ fun r => ∀ c : Dev nD,
      r.2.mem ((c : Thread nD τ).loc main_v0_0) = outArr (m ((c : Thread nD τ).loc main_arg0))
        (m ((c : Thread nD τ).loc main_arg1)) (m ((c : Thread nD τ).loc main_arg2))
      ∧ r.2.mem ((c : Thread nD τ).loc main_v0_1) = attnArr (m ((c : Thread nD τ).loc main_arg0))
        (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (run_blocks m ρ)

end Cert.KernelIdeal.Whole

end
-- ==== Proof.Consts.lean ====
/-
  The float constants the two programs spell, as the extended reals their patterns denote.

  The kernel scales its scores by the literal 0.125; the reference divides 1.0 by the square root of 64.0. The three
  patterns denote the reals 1/8, 1 and 64, the square root of 64 is 8, and the quotient of 1 by 8 on the extended reals
  is the product with 1/8: so the reference's scale IS the kernel's literal.
-/
import Idealize.ShloMosaic.PureOps.Ideal

noncomputable section

namespace Cert.Consts

open Idealize.ShloMosaic

/-- The pattern of `1.0` denotes `1`. -/
theorem ofBits_one : Ideal.ofBits .f32 0x3F800000#32 = ((1 : ℝ) : EReal) := by
  simp [Ideal.ofBits, Ideal.ieee, -EReal.coe_mul]; norm_num

/-- The pattern of `64.0` denotes the real `64`. -/
theorem ofBits_64 : Ideal.ofBits .f32 0x42800000#32 = ((64 : ℝ) : EReal) := by
  simp [Ideal.ofBits, Ideal.ieee, -EReal.coe_mul]; norm_num

/-- The pattern of `0.125` denotes the real `1/8`. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Real.sqrt 64 = 8 := by
  rw [show (64 : ℝ) = 8 ^ 2 by norm_num]
  exact Real.sqrt_sq (by norm_num)

/-- `1.0 / sqrt 64.0`, as the reference computes its scale, is the kernel's literal `0.125`. -/
theorem one_div_sqrt_64 :
    Ideal.div (Ideal.ofBits .f32 0x3F800000#32) (Ideal.sqrt (Ideal.ofBits .f32 0x42800000#32))
      = Ideal.ofBits .f32 0x3E000000#32 := by
  rw [ofBits_one, ofBits_64, ofBits_eighth, Ideal.sqrt_coe, if_neg (by norm_num), sqrt_64,
    Ideal.div_coe (by norm_num : (8 : ℝ) ≠ 0), ← EReal.coe_mul, one_mul]

end Cert.Consts

end
-- ==== Proof.RefRows.lean ====
/-
  The reference, one stage at a time, is the specification.

  The reference's scale is 1.0 / sqrt 64.0, which is the literal 0.125; its scores are the batched product of q with k
  over the features times that scale; its row maximum is a fold of max from −∞ (and one more maximum with −∞, which
  changes nothing); its weights are the exponentials of the differences; their sum starts from 0; the probabilities are
  the quotients, and the output is the batched product of the probabilities with v over the keys. Each stage is read
  at an index by the generated lemmas; what is written here is that the indices those lemmas compose are the obvious
  coordinates and that the composed term is the specification's.
-/
import proofs.«147479_j15908558864399_2_alg».proof.Proof.Gen.ReferenceIdeal.Read
import proofs.«147479_j15908558864399_2_alg».proof.Proof.Spec
import proofs.«147479_j15908558864399_2_alg».proof.Proof.Consts

noncomputable section

namespace Cert.ReferenceIdeal.RefValue

open Cert.ReferenceIdeal Cert.ReferenceIdeal.Gen Cert.ReferenceIdeal.Read
open Idealize.ShloMosaic Idealize.ShloMosaic.ValueIdx Cert.Attn
open scoped BigOperators

variable (x0 x1 x2 : (⟨S16x2048x64, .f32⟩ : BufTy).Contents (Elt Ideal))

/-- The reference's scale, broadcast over the scores, is the literal 0.125 at every index. -/
theorem scale_apply (i : S16x2048x2048.Idx) : val_main_v3 (F := Ideal) i = scale := by
  rw [val_main_v3_apply, val_main_v1_apply, val_main_v0_apply, val_main_cst_0_apply, val_main_cst_apply]
  simp only [Ideal.hostDivf_def, Ideal.hostUnary_sqrt_def, Ideal.ofBits_def]
  exact Cert.Consts.one_div_sqrt_64

/-- The reference's scores at (b, n, m). -/
theorem scores_apply (b : Fin 16) (n m : Fin 2048) :
    val_main_v4 (F := Ideal) x0 x1 (ix3 b n m)
      = scores scale (fun d : Fin 64 => x0 (ix3 b n d)) (fun (j : Fin 2048) (d : Fin 64) => x1 (ix3 b j d)) m := by
  rw [val_main_v4_apply, val_main_v2_apply, scale_apply]
  unfold scores
  simp only [Ideal.mulf_def]
  refine congrArg (· * scale) (Finset.sum_congr rfl fun d _ => ?_)
  have el : lidx_main_v2 (ix3 b n m) d = ix3 b n d :=
    funext fun a => Fin.ext (by match a with | ⟨0, _⟩ => rfl | ⟨1, _⟩ => rfl | ⟨2, _⟩ => rfl)
  have er : ridx_main_v2 (ix3 b n m) d = ix3 b m d :=
    funext fun a => Fin.ext (by match a with | ⟨0, _⟩ => rfl | ⟨1, _⟩ => rfl | ⟨2, _⟩ => rfl)
  rw [el, er]

/-- The reduction along the keys, as a relation between the two shapes. -/
theorem reduces_keys : S16x2048x2048.Reduces [2] S16x2048 := by decide

/-- The source index of a reduction along the keys: result (b, n) with the key k inserted. -/
theorem lift_eq (b : Fin 16) (n k : Fin 2048) : reduces_keys.lift (ix2 b n) k = ix3 b n k :=
  funext fun a => Fin.ext (by match a with | ⟨0, _⟩ => rfl | ⟨1, _⟩ => rfl | ⟨2, _⟩ => rfl)

/-- The reference's row maximum at (b, n). -/
theorem rowMax_apply (b : Fin 16) (n : Fin 2048) :
    val_main_v7 (F := Ideal) x0 x1 (ix2 b n) = rowMax ninf (fun m : Fin 2048 => val_main_v4 (F := Ideal) x0 x1 (ix3 b n m)) := by
  rw [val_main_v7_apply, val_main_v6_apply, val_main_cst_2_apply]
  unfold val_main_v5
  generalize val_main_v4 (F := Ideal) x0 x1 = S
  have hfold := Host.reduce_eq_fold_single (FloatOps.maximumf (F := Ideal) (φ := .f32)) S (val_main_cst_1 (F := Ideal))
    reducesTo_S16x2048x2048_S16x2048_d2 reduces_keys h_S_ (ix2 b n)
  refine (congrArg (max ninf) hfold).trans ?_
  show max ninf ((Finset.univ : Finset (Fin 2048)).fold max ninf (fun m : Fin 2048 => S (reduces_keys.lift (ix2 b n) m))) = _
  rw [show (fun m : Fin 2048 => S (reduces_keys.lift (ix2 b n) m)) = fun m : Fin 2048 => S (ix3 b n m) from
    funext fun m => congrArg S (lift_eq b n m)]
  exact max_rowMax ninf _

/-- The reference's weights at (b, n, m). -/
theorem weight_apply (b : Fin 16) (n m : Fin 2048) :
    val_main_v11 (F := Ideal) x0 x1 (ix3 b n m)
      = weight ninf (fun j : Fin 2048 => val_main_v4 (F := Ideal) x0 x1 (ix3 b n j)) m := by
  rw [val_main_v11_apply, val_main_v10_apply, val_main_v9_apply, val_main_v8_apply]
  have e : idx_main_v8 (idx_main_v9 (ix3 b n m)) = ix2 b n :=
    funext fun a => Fin.ext (by match a with | ⟨0, _⟩ => rfl | ⟨1, _⟩ => rfl)
  rw [e, rowMax_apply]
  rfl

/-- The reference's sum of a row's weights at (b, n). -/
theorem denom_apply (b : Fin 16) (n : Fin 2048) :
    val_main_v12 (F := Ideal) x0 x1 (ix2 b n) = ∑ m : Fin 2048, val_main_v11 (F := Ideal) x0 x1 (ix3 b n m) := by
  rw [val_main_v12_apply, val_main_cst_3_apply, Ideal.ofBits_def, Ideal.ofBits_zero_f32, zero_add]
  refine Finset.sum_congr rfl fun k _ => congrArg (val_main_v11 (F := Ideal) x0 x1) ?_
  exact funext fun a => Fin.ext (by match a with | ⟨0, _⟩ => rfl | ⟨1, _⟩ => rfl | ⟨2, _⟩ => rfl)

/-- The reference's attention probabilities at (b, n, m) are the specification's. -/
theorem attn_apply (b : Fin 16) (n m : Fin 2048) :
    val_main_v15 (F := Ideal) x0 x1 (ix3 b n m) = attnAt x0 x1 b n m := by
  rw [val_main_v15_apply, val_main_v14_apply, val_main_v13_apply]
  have e : idx_main_v13 (idx_main_v14 (ix3 b n m)) = ix2 b n :=
    funext fun a => Fin.ext (by match a with | ⟨0, _⟩ => rfl | ⟨1, _⟩ => rfl)
  rw [e, denom_apply, weight_apply]
  unfold attnAt softmax
  simp only [Ideal.hostDivf_def]
  have hs : (fun j : Fin 2048 => val_main_v4 (F := Ideal) x0 x1 (ix3 b n j))
      = scores scale (fun d : Fin 64 => x0 (ix3 b n d)) (fun (j : Fin 2048) (d : Fin 64) => x1 (ix3 b j d)) :=
    funext fun j => scores_apply x0 x1 b n j
  refine congrArg₂ Ideal.div (by rw [hs]) (Finset.sum_congr rfl fun j _ => ?_)
  rw [weight_apply, hs]

/-- The reference's attention probabilities, as one array, are the specification's. -/
theorem attn_eq : val_main_v15 (F := Ideal) x0 x1 = attnArr x0 x1 := by
  funext i
  obtain ⟨b, n, m, rfl⟩ : ∃ (b : Fin 16) (n m : Fin 2048), i = ix3 b n m := ⟨i 0, i 1, i 2, eq_ix3 i⟩
  exact attn_apply x0 x1 b n m

/-- The reference's output, as one array, is the specification's. -/
theorem out_eq : val_main_v16 (F := Ideal) x0 x1 x2 = outArr x0 x1 x2 := by
  funext i
  obtain ⟨b, n, d, rfl⟩ : ∃ (b : Fin 16) (n : Fin 2048) (d : Fin 64), i = ix3 b n d := ⟨i 0, i 1, i 2, eq_ix3 i⟩
  rw [val_main_v16_apply, outArr_apply]
  unfold outAt
  refine Finset.sum_congr rfl fun k _ => ?_
  have el : lidx_main_v16 (ix3 b n d) k = ix3 b n k :=
    funext fun a => Fin.ext (by match a with | ⟨0, _⟩ => rfl | ⟨1, _⟩ => rfl | ⟨2, _⟩ => rfl)
  have er : ridx_main_v16 (ix3 b n d) k = ix3 b k d :=
    funext fun a => Fin.ext (by match a with | ⟨0, _⟩ => rfl | ⟨1, _⟩ => rfl | ⟨2, _⟩ => rfl)
  rw [el, er, attn_apply]

end Cert.ReferenceIdeal.RefValue

end
-- ==== Proof.lean ====
/-
  Scaled dot-product attention, tiled over (batch entry, 512 query rows), against its jnp reference, on the extended reals.

  Both programs compute, for every batch entry b and query row n, the scores (q(b, n, ·) · k(b, m, ·)) · c over the 2048
  key rows m, the softmax of that row — exp(score − row maximum) divided by the sum of those exponentials — as the
  attention probabilities, and the probabilities' combination ∑ₘ attn(b, n, m) · v(b, m, ·) of the value rows as the
  output. The kernel spells the scale c as the literal 0.125 and the reference as 1.0 / sqrt 64.0: one extended real.
  The kernel's changes of float format are the identity on exact values; its products into a zero accumulator and the
  reference's batched products are the same finite sums; the reference's extra maximum with −∞ changes nothing. The two
  programs are therefore one function of the arguments, formula by formula, and no property of finite numbers is used.

  The kernel's two result arrays as whole functions of the arguments: KernelTile (the body's two stored tiles read at an
  index) and KernelArray (each grid point writes back one block of those functions; the 64 blocks tile the arrays).
  The reference's two results as the same functions: RefRows. The frames of the two kernel programs are the generated
  ones; the reference's frame is its generated run with the results dropped; no rewrite was applied when the kernel was
  idealized, so that conjunct is trivial.
-/
import proofs.«147479_j15908558864399_2_alg».proof.Defs
import proofs.«147479_j15908558864399_2_alg».proof.Proof.Gen.Kernel
import proofs.«147479_j15908558864399_2_alg».proof.Proof.Gen.Kernel.Skeleton
import proofs.«147479_j15908558864399_2_alg».proof.Proof.Gen.Kernel.Launch
import proofs.«147479_j15908558864399_2_alg».proof.Proof.Gen.Kernel.Points
import proofs.«147479_j15908558864399_2_alg».proof.Proof.Gen.Kernel.Frame
import proofs.«147479_j15908558864399_2_alg».proof.Proof.Gen.KernelIdeal
import proofs.«147479_j15908558864399_2_alg».proof.Proof.Gen.KernelIdeal.Skeleton
import proofs.«147479_j15908558864399_2_alg».proof.Proof.Gen.KernelIdeal.Launch
import proofs.«147479_j15908558864399_2_alg».proof.Proof.Gen.KernelIdeal.Points
import proofs.«147479_j15908558864399_2_alg».proof.Proof.Gen.KernelIdeal.Frame
import proofs.«147479_j15908558864399_2_alg».proof.Proof.Gen.KernelIdeal.Value
import proofs.«147479_j15908558864399_2_alg».proof.Proof.Gen.ReferenceIdeal
import proofs.«147479_j15908558864399_2_alg».proof.Proof.Gen.ReferenceIdeal.Run
import proofs.«147479_j15908558864399_2_alg».proof.Proof.Gen.ReferenceIdeal.Read
import proofs.«147479_j15908558864399_2_alg».proof.Proof.Gen.Pre_finite_inputs
import proofs.«147479_j15908558864399_2_alg».proof.Proof.KernelArray
import proofs.«147479_j15908558864399_2_alg».proof.Proof.RefRows
import Idealize.ShloMosaic.Adequacy
import Idealize.ShloMosaic.Init

noncomputable section

namespace Cert.Proof

open Idealize.ShloMosaic Idealize.ShloMosaic.TcCoe Idealize.SL.Sem Cert.Attn

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was rewritten when the kernel was idealized. -/
theorem preserves : Cert.preserves_Kernel_KernelIdeal := trivial

/-- From memories agreeing on q, k and v, both programs end with the output at `outArr q k v` and the attention
    probabilities at `attnArr q k`. -/
theorem algebraic : Cert.algebraic_KernelIdeal_ReferenceIdeal := by
  intro m ρ m' ρ' _ hagree
  refine ⟨fun c => outArr (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    fun c => attnArr (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ?_) (Cert.ReferenceIdeal.Value.run (F := Ideal) m' ρ')
  refine ⟨(h c).1.trans ?_, (h c).2.1.trans ?_, (h c).2.2⟩
  · refine (Cert.ReferenceIdeal.Read.val_main_v16_eq _ _ _).trans ((Cert.ReferenceIdeal.RefValue.out_eq _ _ _).trans ?_)
    rw [(hagree c).1, (hagree c).2.1, (hagree c).2.2]
  · refine (Cert.ReferenceIdeal.Read.val_main_v15_eq _ _).trans ((Cert.ReferenceIdeal.RefValue.attn_eq _ _).trans ?_)
    rw [(hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
